-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S512x256 : Shape := ⟨2, ![512, 256]⟩
abbrev S256 : Shape := ⟨1, ![256]⟩
abbrev S256x8 : Shape := ⟨2, ![256, 8]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x8 : S_.BroadcastsInDim S256x8 (![] : Fin 0 → Fin S256x8.rank)
  reducesTo_S256x8_S_d0_1 : S256x8.ReducesTo [0, 1] S_

variable [Facts]

def fn_part1 {F : FTy → Type} [FloatOps F] (main_arg4 : FVec F S256 .f32) (main_arg5 : FVec F S256x8 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x8 .f32 := Host.absf main_arg5
  let main_cst_8 : FVec F S_ .f32 := constant S_ .f32 0x7F800000#32
  let main_v25 : FVec F S256x8 .f32 := broadcastInDim S256x8 ![] bcast_S_S256x8 main_cst_8
  let main_v26 : IVec S256x8 1 := cmpf .olt main_v24 main_v25
  let main_c_9 : IVec S_ 1 := constantI S_ 1 1#1
  let main_v27 : IVec S_ 1 := (fun x v => Host.reduce IntOp.andi x v reducesTo_S256x8_S_d0_1 h_S_) main_v26 main_c_9
  let main_v28 : IVec S_ 1 := andi main_v23 main_v27
  main_v28

def fn {F : FTy → Type} [FloatOps F] (main_arg0 : FVec F S4x256x512 .f32) (main_arg1 : FVec F S4x256x512 .f32) (main_arg2 : FVec F S512x256 .f32) (main_arg3 : FVec F S512x256 .f32) (main_arg4 : FVec F S256 .f32) (main_arg5 : FVec F S256x8 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x256x512 .f32 := Host.absf main_arg1
  let main_cst_0 : FVec F S_ .f32 := constant S_ .f32 0x7F800000#32
  let main_v5 : FVec F S4x256x512 .f32 := broadcastInDim S4x256x512 ![] bcast_S_S4x256x512 main_cst_0
  let main_v6 : IVec S4x256x512 1 := cmpf .olt main_v4 main_v5
  let main_c_1 : IVec S_ 1 := constantI S_ 1 1#1
  let main_v7 : IVec S_ 1 := (fun x v => Host.reduce IntOp.andi x v reducesTo_S4x256x512_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_v13 main_v16
-- ==== Kernel.lean ====
abbrev S4x256x512 : Shape := ⟨3, ![4, 256, 512]⟩
abbrev S512x256 : Shape := ⟨2, ![512, 256]⟩
abbrev S256 : Shape := ⟨1, ![256]⟩
abbrev S256x8 : Shape := ⟨2, ![256, 8]⟩
abbrev S4x256x256 : Shape := ⟨3, ![4, 256, 256]⟩
abbrev S1x256x512 : Shape := ⟨3, ![1, 256, 512]⟩
abbrev S1x256x256 : Shape := ⟨3, ![1, 256, 256]⟩
abbrev S256x512 : Shape := ⟨2, ![256, 512]⟩
abbrev S256x256 : Shape := ⟨2, ![256, 256]⟩
abbrev S4x256x256x8 : Shape := ⟨4, ![4, 256, 256, 8]⟩
abbrev S1x64x256 : Shape := ⟨3, ![1, 64, 256]⟩
abbrev S1x128x256 : Shape := ⟨3, ![1, 128, 256]⟩
abbrev S1x64x128x8 : Shape := ⟨4, ![1, 64, 128, 8]⟩
abbrev S64x256 : Shape := ⟨2, ![64, 256]⟩
abbrev S128x256 : Shape := ⟨2, ![128, 256]⟩
abbrev S64x1x256 : Shape := ⟨3, ![64, 1, 256]⟩
abbrev S64x128x256 : Shape := ⟨3, ![64, 128, 256]⟩
abbrev S1x1x256 : Shape := ⟨3, ![1, 1, 256]⟩
abbrev S8192x256 : Shape := ⟨2, ![8192, 256]⟩
abbrev S8192x8 : Shape := ⟨2, ![8192, 8]⟩
abbrev S64x128x8 : Shape := ⟨3, ![64, 128, 8]⟩
abbrev S4x8x256x256 : Shape := ⟨4, ![4, 8, 256, 256]⟩

abbrev nBuf : Space → Nat
  | .hbm => 10
  | .vmem => 18
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S512x256, .f32⟩
  | .hbm, ⟨3, _⟩ => ⟨S512x256, .f32⟩
  | .hbm, ⟨4, _⟩ => ⟨S256, .f32⟩
  | .hbm, ⟨5, _⟩ => ⟨S256x8, .f32⟩
  | .hbm, ⟨6, _⟩ => ⟨S4x256x256, .f32⟩
  | .hbm, ⟨7, _⟩ => ⟨S4x256x256, .f32⟩
  | .hbm, ⟨8, _⟩ => ⟨S4x256x256x8, .f32⟩
  | .hbm, ⟨9, _⟩ => ⟨S4x8x256x256, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S512x256, .f32⟩
  | .local _ .vmem, ⟨5, _⟩ => ⟨S512x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x64x256, .f32⟩
  | .local _ .vmem, ⟨11, _⟩ => ⟨S1x64x256, .f32⟩
  | .local _ .vmem, ⟨12, _⟩ => ⟨S1x128x256, .f32⟩
  | .local _ .vmem, ⟨13, _⟩ => ⟨S1x128x256, .f32⟩
  | .local _ .vmem, ⟨14, _⟩ => ⟨S256, .f32⟩
  | .local _ .vmem, ⟨15, _⟩ => ⟨S256x8, .f32⟩
  | .local _ .vmem, ⟨16, _⟩ => ⟨S1x64x128x8, .f32⟩
  | .local _ .vmem, ⟨17, _⟩ => ⟨S1x64x128x8, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S256x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x64x128x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S256_S256_0 : ∀ a, (![0] : Fin 1 → Nat) a + S256.size a ≤ S256.size a
  h_S256 : 0 < S256.numel
  shapeCasts_S64x256_S64x1x256 : S64x256.ShapeCasts S64x1x256
  shapeCasts_S128x256_S1x128x256 : S128x256.ShapeCasts S1x128x256
  broadcasts_S64x1x256_S64x128x256 : S64x1x256.Broadcasts S64x128x256
  broadcasts_S1x128x256_S64x128x256 : S1x128x256.Broadcasts S64x128x256
  shapeCasts_S256_S1x1x256 : S256.ShapeCasts S1x1x256
  broadcasts_S1x1x256_S64x128x256 : S1x1x256.Broadcasts S64x128x256
  shapeCasts_S64x128x256_S8192x256 : S64x128x256.ShapeCasts S8192x256
  inb_S256x8_S256x8_0_0 : ∀ a, (![0, 0] : Fin 2 → Nat) a + S256x8.size a ≤ S256x8.size a
  h_S256x8 : 0 < S256x8.numel
  shapeCasts_S8192x8_S64x128x8 : S8192x8.ShapeCasts S64x128x8
  inb_S1x64x128x8_S1x64x128x8_0_0_0_0 : ∀ a, (![0, 0, 0, 0] : Fin 4 → Nat) a + S1x64x128x8.size a ≤ S1x64x128x8.size a
  h_S1x64x128x8 : 0 < S1x64x128x8.numel
  shapeCasts_S1x64x128x8_S64x128x8 : S1x64x128x8.ShapeCasts S64x128x8
  shapeCasts_S64x128x8_S1x64x128x8 : S64x128x8.ShapeCasts S1x64x128x8
  transposes_S4x256x256x8_S4x8x256x256_0_3_2_1 : S4x256x256x8.Transposes [0, 3, 2, 1] S4x8x256x256
  dot_S256x512_S512x256_S256x256_1_0_0_1_n_n_wf : DotDims.WF S256x512 S512x256 S256x256 [1] [0] [0] [1] [] []
  dot_S8192x256_S256x8_S8192x8_1_0_0_1_n_n_wf : DotDims.WF S8192x256 S256x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x256x512.size a
  hwx0_0 : ∀ i : grid0.Coords, EltTy.bits .f32 = 32 ∨ (Rect.block (s := S4x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S4x256x512.size a
  hwx0_1 : ∀ i : grid0.Coords, EltTy.bits .f32 = 32 ∨ (Rect.block (s := S4x256x512) S1x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S4x256x256.size a
  hwx0_4 : ∀ i : grid0.Coords, EltTy.bits .f32 = 32 ∨ (Rect.block (s := S4x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S4x256x256.size a
  hwx0_5 : ∀ i : grid0.Coords, EltTy.bits .f32 = 32 ∨ (Rect.block (s := S4x256x256) S1x256x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x256.size a ≤ S4x256x256.size a
  hwx1_0 : ∀ i : grid1.Coords, EltTy.bits .f32 = 32 ∨ (Rect.block (s := S4x256x256) S1x64x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x256.size a ≤ S4x256x256.size a
  hwx1_1 : ∀ i : grid1.Coords, EltTy.bits .f32 = 32 ∨ (Rect.block (s := S4x256x256) S1x128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x8.size a ≤ S256x8.size a
  hwx1_3 : ∀ i : grid1.Coords, EltTy.bits .f32 = 32 ∨ (Rect.block (s := S256x8) S256x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x128x8.size a ≤ S4x256x256x8.size a
  hwx1_4 : ∀ i : grid1.Coords, EltTy.bits .f32 = 32 ∨ (Rect.block (s := S4x256x256x8) S1x64x128x8.size (cc1_transform_4 i) (hinb1_4 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S8192x256_S256x8_S8192x8_1_0_0_1_n_n : DotDims S8192x256 S256x8 S8192x8 where
  lhsContracting := [1]
  rhsContracting := [0]
  lhsNonContracting := [0]
  rhsNonContracting := [1]
  lhsBatch := []
  rhsBatch := []
  wf := dot_S8192x256_S256x8_S8192x8_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_1) S1x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64x128x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x256x512 : Shape := ⟨3, ![4, 256, 512]⟩
abbrev S512x256 : Shape := ⟨2, ![512, 256]⟩
abbrev S256 : Shape := ⟨1, ![256]⟩
abbrev S256x8 : Shape := ⟨2, ![256, 8]⟩
abbrev S4x256x256 : Shape := ⟨3, ![4, 256, 256]⟩
abbrev S4x1x256x256 : Shape := ⟨4, ![4, 1, 256, 256]⟩
abbrev S4x256x1x256 : Shape := ⟨4, ![4, 256, 1, 256]⟩
abbrev S4x256x256x256 : Shape := ⟨4, ![4, 256, 256, 256]⟩
abbrev S1x1x1x256 : Shape := ⟨4, ![1, 1, 1, 256]⟩
abbrev S4x256x256x8 : Shape := ⟨4, ![4, 256, 256, 8]⟩
abbrev S4x8x256x256 : Shape := ⟨4, ![4, 8, 256, 256]⟩

abbrev nBuf : Space → Nat
  | .hbm => 19
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x256x512, .f32⟩
  | .hbm, ⟨2, _⟩ => ⟨S512x256, .f32⟩
  | .hbm, ⟨3, _⟩ => ⟨S512x256, .f32⟩
  | .hbm, ⟨4, _⟩ => ⟨S256, .f32⟩
  | .hbm, ⟨5, _⟩ => ⟨S256x8, .f32⟩
  | .hbm, ⟨6, _⟩ => ⟨S4x256x256, .f32⟩
  | .hbm, ⟨7, _⟩ => ⟨S4x1x256x256, .f32⟩
  | .hbm, ⟨8, _⟩ => ⟨S4x256x256, .f32⟩
  | .hbm, ⟨9, _⟩ => ⟨S4x256x1x256, .f32⟩
  | .hbm, ⟨10, _⟩ => ⟨S4x256x256x256, .f32⟩
  | .hbm, ⟨11, _⟩ => ⟨S4x256x256x256, .f32⟩
  | .hbm, ⟨12, _⟩ => ⟨S4x256x256x256, .f32⟩
  | .hbm, ⟨13, _⟩ => ⟨S1x1x1x256, .f32⟩
  | .hbm, ⟨14, _⟩ => ⟨S4x256x256x256, .f32⟩
  | .hbm, ⟨15, _⟩ => ⟨S4x256x256x256, .f32⟩
  | .hbm, ⟨16, _⟩ => ⟨S4x256x256x256, .f32⟩
  | .hbm, ⟨17, _⟩ => ⟨S4x256x256x8, .f32⟩
  | .hbm, ⟨18, _⟩ => ⟨S4x8x256x256, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S4x256x256_S4x1x256x256_0_2_3 : S4x256x256.BroadcastsInDim S4x1x256x256 (![0, 2, 3] : Fin 3 → Fin S4x1x256x256.rank)
  bcast_S4x256x256_S4x256x1x256_0_1_3 : S4x256x256.BroadcastsInDim S4x256x1x256 (![0, 1, 3] : Fin 3 → Fin S4x256x1x256.rank)
  bcast_S4x1x256x256_S4x256x256x256_0_1_2_3 : S4x1x256x256.BroadcastsInDim S4x256x256x256 (![0, 1, 2, 3] : Fin 4 → Fin S4x256x256x256.rank)
  bcast_S4x256x1x256_S4x256x256x256_0_1_2_3 : S4x256x1x256.BroadcastsInDim S4x256x256x256 (![0, 1, 2, 3] : Fin 4 → Fin S4x256x256x256.rank)
  bcast_S256_S1x1x1x256_3 : S256.BroadcastsInDim S1x1x1x256 (![3] : Fin 1 → Fin S1x1x1x256.rank)
  bcast_S1x1x1x256_S4x256x256x256_0_1_2_3 : S1x1x1x256.BroadcastsInDim S4x256x256x256 (![0, 1, 2, 3] : Fin 4 → Fin S4x256x256x256.rank)
  transposes_S4x256x256x8_S4x8x256x256_0_3_2_1 : S4x256x256x8.Transposes [0, 3, 2, 1] S4x8x256x256
  dot_S4x256x512_S512x256_S4x256x256_2_0_01_1_n_n_wf : DotDims.WF S4x256x512 S512x256 S4x256x256 [2] [0] [0, 1] [1] [] []
  dot_S4x256x256x256_S256x8_S4x256x256x8_3_0_012_1_n_n_wf : DotDims.WF S4x256x256x256 S256x8 S4x256x256x8 [3] [0] [0, 1, 2] [1] [] []

variable [Facts₀]

def dot_S4x256x512_S512x256_S4x256x256_2_0_01_1_n_n : DotDims S4x256x512 S512x256 S4x256x256 where
  lhsContracting := [2]
  rhsContracting := [0]
  lhsNonContracting := [0, 1]
  rhsNonContracting := [1]
  lhsBatch := []
  rhsBatch := []
  wf := dot_S4x256x512_S512x256_S4x256x256_2_0_01_1_n_n_wf
def dot_S4x256x256x256_S256x8_S4x256x256x8_3_0_012_1_n_n : DotDims S4x256x256x256 S256x8 S4x256x256x8 where
  lhsContracting := [3]
  rhsContracting := [0]
  lhsNonContracting := [0, 1, 2]
  rhsNonContracting := [1]
  lhsBatch := []
  rhsBatch := []
  wf := dot_S4x256x256x256_S256x8_S4x256x256x8_3_0_012_1_n_n_wf

class Facts : Prop extends Facts₀ where

variable [Facts]
-- ==== Proof.KernelRun.lean ====
/-
  The idealized kernel program's run with its RESULT named: every weakly fair execution of the program (two kernel
  regions, then one transposition on the host) terminates without a fault, leaves the six argument arrays as
  launched, and leaves the result array at the contents the last boundary of the run holds for it — the host's
  transposition applied to what the second region's write-backs leave in its output array.
-/
import proofs.«177209_j1580547970729_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run: the result array ends at the last boundary's contents for it, the arguments end as launched. The thread
    state at the end holds every unscoped buffer at that boundary's contents, and the result's buffer is one of them. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Hand

end
-- ==== Proof.AttnSpec.lean ====
/-
  The mathematics both programs compute, as functions of the six argument arrays over the extended reals.

  A projection: for a batch of row vectors x[b, r, :] (512 entries) and a 512 × 256 matrix w,
      proj x w [b, r, h] = Σ_k x[b, r, k] · w[k, h].
  The additive-attention energies: for projected encoder rows oe[b, e, :], projected decoder rows od[b, d, :],
  a bias over the 256 hidden units and a 256 × 8 matrix v,
      score oe od bias v [b, e, d, l] = Σ_h tanh((oe[b, e, h] + od[b, d, h]) + bias[h]) · v[h, l].
  The whole computation is score (proj xe we) (proj xd wd) bias v, afterwards laid out as [b, l, d, e].
-/
import Idealize.ShloMosaic.PureOps.Ideal
import Idealize.ShloMosaic.Lib.ValueIdx

noncomputable section

namespace Cert.AttnSpec

open Idealize.ShloMosaic Idealize.ShloMosaic.ValueIdx

/-- One entry of a projection: row (b, r) of x against column h of w. -/
def projAt (x : FVec Ideal ⟨3, ![4, 256, 512]⟩ .f32) (w : FVec Ideal ⟨2, ![512, 256]⟩ .f32)
    (b : Fin 4) (r : Fin 256) (h : Fin 256) : EReal :=
  ∑ k : Fin 512, x (ix3 b r k) * w (ix2 k h)

/-- The projected array [4, 256, 256]. -/
def proj (x : FVec Ideal ⟨3, ![4, 256, 512]⟩ .f32) (w : FVec Ideal ⟨2, ![512, 256]⟩ .f32) :
    FVec Ideal ⟨3, ![4, 256, 256]⟩ .f32 :=
  fun i => projAt x w (i 0) (i 1) (i 2)

/-- One energy: encoder position e against decoder position d of batch b, for output label l. -/
def scoreAt (oe od : FVec Ideal ⟨3, ![4, 256, 256]⟩ .f32) (bias : FVec Ideal ⟨1, ![256]⟩ .f32)
    (v : FVec Ideal ⟨2, ![256, 8]⟩ .f32) (b : Fin 4) (e d : Fin 256) (l : Fin 8) : EReal :=
  ∑ h : Fin 256, Ideal.tanh ((oe (ix3 b e h) + od (ix3 b d h)) + bias (ix1 h)) * v (ix2 h l)

/-- The energies as an array [4, 256 (encoder), 256 (decoder), 8]. -/
def score (oe od : FVec Ideal ⟨3, ![4, 256, 256]⟩ .f32) (bias : FVec Ideal ⟨1, ![256]⟩ .f32)
    (v : FVec Ideal ⟨2, ![256, 8]⟩ .f32) : FVec Ideal ⟨4, ![4, 256, 256, 8]⟩ .f32 :=
  fun i => scoreAt oe od bias v (i 0) (i 1) (i 2) (i 3)

/-- The energies of the six arguments: decoder input xd, encoder input xe, their weight matrices, the bias, v. -/
def energy (xd xe : FVec Ideal ⟨3, ![4, 256, 512]⟩ .f32) (wd we : FVec Ideal ⟨2, ![512, 256]⟩ .f32)
    (bias : FVec Ideal ⟨1, ![256]⟩ .f32) (v : FVec Ideal ⟨2, ![256, 8]⟩ .f32) :
    FVec Ideal ⟨4, ![4, 256, 256, 8]⟩ .f32 :=
  score (proj xe we) (proj xd wd) bias v

theorem proj_ix3 (x : FVec Ideal ⟨3, ![4, 256, 512]⟩ .f32) (w : FVec Ideal ⟨2, ![512, 256]⟩ .f32)
    (b : Fin 4) (r h : Fin 256) : proj x w (ix3 b r h) = projAt x w b r h := rfl

end Cert.AttnSpec

end
-- ==== Proof.ProjPayload.lean ====
/-
  The projection kernel's arithmetic at one entry. Its body loads a [1, 256, 512] block of an input and the whole
  512 × 256 weight matrix, drops the block's unit axis, multiplies the two matrices into a zero accumulator and puts
  the unit axis back. Over the extended reals (a change of float format is the identity there) the entry (·, r, h) of
  what it stores is Σ_k x[0, r, k] · w[k, h]: the matrix unit's contraction is re-indexed from its one-axis contraction
  index to k ∈ Fin 512.
-/
import proofs.«177209_j1580547970729_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-! ## The matrix product [256, 512] × [512, 256] read at an entry -/

theorem projDot_lhs0 (j : S256x256.Idx) (q : dot_S256x512_S512x256_S256x256_1_0_0_1_n_n.contr.Idx) :
    (dot_S256x512_S512x256_S256x256_1_0_0_1_n_n.lhsIdx j q 0).val = (j 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem projDot_lhs1 (j : S256x256.Idx) (q : dot_S256x512_S512x256_S256x256_1_0_0_1_n_n.contr.Idx) :
    (dot_S256x512_S512x256_S256x256_1_0_0_1_n_n.lhsIdx j q 1).val = (q ⟨0, by decide⟩).val :=
  dot_S256x512_S512x256_S256x256_1_0_0_1_n_n.lhsIdx_val_of_single rfl j q
theorem projDot_rhs0 (j : S256x256.Idx) (q : dot_S256x512_S512x256_S256x256_1_0_0_1_n_n.contr.Idx) :
    (dot_S256x512_S512x256_S256x256_1_0_0_1_n_n.rhsIdx j q 0).val = (q ⟨0, by decide⟩).val :=
  dot_S256x512_S512x256_S256x256_1_0_0_1_n_n.rhsIdx_val_of_single rfl j q
theorem projDot_rhs1 (j : S256x256.Idx) (q : dot_S256x512_S512x256_S256x256_1_0_0_1_n_n.contr.Idx) :
    (dot_S256x512_S512x256_S256x256_1_0_0_1_n_n.rhsIdx j q 1).val = (j 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- Entry (i, h) of the product into the zero accumulator is the sum over k of l[i, k] · r[k, h]. -/
theorem projMatmul_apply (l : FVec Ideal S256x512 .bf16) (r : FVec Ideal S512x256 .bf16) (i h : Fin 256) :
    FloatOps.matmul dot_S256x512_S512x256_S256x256_1_0_0_1_n_n none l r (constant S256x256 .f32 0x00000000#32) (ix2 i h)
      = ∑ k : Fin 512, l (ix2 i k) * r (ix2 k h) := by
  rw [Ideal.matmul_constant_zero_apply, ← Equiv.sum_comp (contrEquiv1 dot_S256x512_S512x256_S256x256_1_0_0_1_n_n 512 rfl rfl).symm]
  refine Finset.sum_congr rfl fun k _ => ?_
  have hk := contrEquiv1_symm_val dot_S256x512_S512x256_S256x256_1_0_0_1_n_n 512 rfl rfl k
  have el : dot_S256x512_S512x256_S256x256_1_0_0_1_n_n.lhsIdx (ix2 i h) ((contrEquiv1 dot_S256x512_S512x256_S256x256_1_0_0_1_n_n 512 rfl rfl).symm k) = ix2 i k := funext fun a => Fin.ext (by
    match a with
    | ⟨0, _⟩ => exact projDot_lhs0 _ _
    | ⟨1, _⟩ => exact (projDot_lhs1 _ _).trans hk)
  have er : dot_S256x512_S512x256_S256x256_1_0_0_1_n_n.rhsIdx (ix2 i h) ((contrEquiv1 dot_S256x512_S512x256_S256x256_1_0_0_1_n_n 512 rfl rfl).symm k) = ix2 k h := funext fun a => Fin.ext (by
    match a with
    | ⟨0, _⟩ => exact (projDot_rhs0 _ _).trans hk
    | ⟨1, _⟩ => exact projDot_rhs1 _ _)
  rw [el, er]

/-! ## The two stored values at an entry -/

/-- What the body stores for the first output, at (u, r, h): row r of the loaded block against column h of the
    loaded matrix. -/
theorem k0_pay1_apply (x : Vec Ideal S1x256x512 .f32) (w : Vec Ideal S512x256 .f32) (u : Fin 1) (r h : Fin 256) :
    k0_pay1 (F := Ideal) x w (ix3 u r h) = ∑ k : Fin 512, x (ix3 (0 : Fin 1) r k) * w (ix2 k h) := by
  unfold k0_pay1
  refine (shapeCast_ab_1ab_apply _ _ u r h).trans ?_
  refine (projMatmul_apply _ _ r h).trans ?_
  refine Finset.sum_congr rfl fun k _ => ?_
  show shapeCast S256x512 x shapeCasts_S1x256x512_S256x512 (ix2 r k) * w (ix2 k h) = _
  rw [shapeCast_1ab_ab_apply]

/-- The same for the second output. -/
theorem k0_pay2_apply (x : Vec Ideal S1x256x512 .f32) (w : Vec Ideal S512x256 .f32) (u : Fin 1) (r h : Fin 256) :
    k0_pay2 (F := Ideal) x w (ix3 u r h) = ∑ k : Fin 512, x (ix3 (0 : Fin 1) r k) * w (ix2 k h) := by
  unfold k0_pay2
  refine (shapeCast_ab_1ab_apply _ _ u r h).trans ?_
  refine (projMatmul_apply _ _ r h).trans ?_
  refine Finset.sum_congr rfl fun k _ => ?_
  show shapeCast S256x512 x shapeCasts_S1x256x512_S256x512 (ix2 r k) * w (ix2 k h) = _
  rw [shapeCast_1ab_ab_apply]

end Cert.KernelIdeal.Hand

end
-- ==== Proof.ProjRegion.lean ====
/-
  The first region (the projection kernel over a grid of four points, one per batch entry) as whole-array functions:
  whatever arrays the region is entered with, its two output arrays end at the projections
      out_d[b, r, h] = Σ_k input_d[b, r, k] · W_d[k, h],     out_e[b, r, h] = Σ_k input_e[b, r, k] · W_e[k, h].
  Point t reads block (t, 0, 0) of each input (batch entry t) and the whole weight matrices, and writes block
  (t, 0, 0) of each output; the four output blocks tile the [4, 256, 256] arrays.
-/
import proofs.«177209_j1580547970729_1_alg».proof.Proof.Gen.KernelIdeal.Frame
import proofs.«177209_j1580547970729_1_alg».proof.Proof.AttnSpec
import proofs.«177209_j1580547970729_1_alg».proof.Proof.ProjPayload
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed block-index maps over the grid: every input and output block of point t is batch entry
    t's, on the other axes block 0; the weight blocks are the whole matrices. -/
theorem projIdx : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 3) = win0_4.index t (0 : Fin 3) ∧ win0_5.index t (1 : Fin 3) = 0 ∧ win0_5.index t (2 : Fin 3) = 0
    ∧ win0_4.index t (1 : Fin 3) = 0 ∧ win0_4.index t (2 : Fin 3) = 0 ∧ win0_4.index t (0 : Fin 3) ≤ 3 :=
  (by decide +kernel : ∀ t : Fin grid0.N, _)

/-- Every batch entry is some point's. -/
theorem projOnto : ∀ q : Fin 4, ∃ t : Fin cfg0.N, win0_4.index t (0 : Fin 3) = q.val :=
  (by decide +kernel : ∀ q : Fin 4, ∃ t : Fin grid0.N, win0_4.index t (0 : Fin 3) = q.val)

/-! ## Output window 4: the projection of main_arg0 by main_arg2 -/

/-- At grid point t the body's stored value at block position y is the projection's entry at the array position the
    output block puts y at: the input block is the same batch's rows, the weight block the whole matrix. -/
theorem projPoint4 (c : Dev nD) (t : Fin cfg0.N) (y : S1x256x256.Idx) :
    k0_pay1 (F := Ideal) (iblk0 V c 0 t) (iblk0 V c 2 t) y
      = AttnSpec.proj (V c main_arg0) (V c main_arg2) (((cfg0.win 4).blk t).view.emb y) := by
  obtain ⟨u, r, h, rfl⟩ : ∃ (u : Fin 1) (r h : Fin 256), y = ix3 u r h := ⟨y 0, y 1, y 2, eq_ix3 y⟩
  obtain ⟨e00, e01, e02, e10, e11, e12, e20, e21, e30, e31, e50, e51, e52, e41, e42, -⟩ := projIdx t
  refine (k0_pay1_apply (iblk0 V c 0 t) (iblk0 V c 2 t) u r h).trans ?_
  unfold AttnSpec.proj AttnSpec.projAt
  refine Finset.sum_congr rfl fun k _ => ?_
  refine congrArg₂ (· * ·) ?_ ?_
  · unfold iblk0
    rw [View.read_apply]
    show V c main_arg0 (((cfg0.win 0).blk t).view.emb (ix3 (0 : Fin 1) r k)) = V c main_arg0 _
    refine congrArg _ (funext fun a => Fin.ext ?_)
    match a with
    | ⟨0, _⟩ => show win0_0.index t (0 : Fin 3) * 1 + 1 * 0 = win0_4.index t (0 : Fin 3) * 1 + 1 * u.val; have := u.isLt; omega
    | ⟨1, _⟩ => show win0_0.index t (1 : Fin 3) * 256 + 1 * r.val = win0_4.index t (1 : Fin 3) * 256 + 1 * r.val; omega
    | ⟨2, _⟩ => show win0_0.index t (2 : Fin 3) * 512 + 1 * k.val = k.val; omega
  · unfold iblk0
    rw [View.read_apply]
    show V c main_arg2 (((cfg0.win 2).blk t).view.emb (ix2 k h)) = V c main_arg2 _
    refine congrArg _ (funext fun a => Fin.ext ?_)
    match a with
    | ⟨0, _⟩ => show win0_2.index t (0 : Fin 2) * 512 + 1 * k.val = k.val; omega
    | ⟨1, _⟩ => show win0_2.index t (1 : Fin 2) * 256 + 1 * h.val = win0_4.index t (2 : Fin 3) * 256 + 1 * h.val; omega

/-- What point t writes back is its block of the projected array. -/
theorem projFlushed4 (c : Dev nD) (t : Fin cfg0.N) :
    (dat0 V c).flushed 4 t = ((cfg0.win 4).blk t).view.read (Elt Ideal) (AttnSpec.proj (V c main_arg0) (V c main_arg2)) := by
  show (cfg0.win 4).cut (grid0.coords t) ((dat0 V c).after 4 t) = _
  rw [after0_4]
  unfold out0_4
  rw [View.canon_unit_zero hz3]
  simp only [View.ld_unit_zero (S := S1x256x512) hz3, View.ld_unit_zero (S := S512x256) hz2]
  funext j
  exact projPoint4 V c t j

/-- An index is in point t's block iff each coordinate is in the block's range. -/
theorem projMem4 (t : Fin cfg0.N) (i : S4x256x256.Idx) :
    i ∈ ((cfg0.win 4).blk t).view.set ↔ ∀ a : Fin 3, win0_4.index t a * S1x256x256.size a ≤ (i a).val ∧ (i a).val < win0_4.index t a * S1x256x256.size a + S1x256x256.size a := by
  show i ∈ ((View.whole main_v0_0).slice (win0_4.rect t)).set ↔ _
  rw [View.set_slice_whole, Rect.mem_set_unit]
  exact Iff.rfl

/-- The four blocks, one per batch entry, cover the array. -/
theorem projCover4 (i : S4x256x256.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 256 := (i 2).isLt
  obtain ⟨t, ht⟩ := projOnto ⟨(i 0).val, hi0⟩
  have ht' : win0_4.index t (0 : Fin 3) = (i 0).val := ht
  obtain ⟨e00, e01, e02, e10, e11, e12, e20, e21, e30, e31, e50, e51, e52, e41, e42, -⟩ := projIdx t
  refine ⟨t, flush0_4 t, ?_⟩
  rw [projMem4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-- So after the region the array holds the projection of the arrays the region was entered with. -/
theorem projFinal4 (c : Dev nD) : (dat0 V c).arrAt 4 cfg0.N = AttnSpec.proj (V c main_arg0) (V c main_arg2) :=
  (dat0 V c).arrAt_eq_of_cover 4 _ (fun t _ => projFlushed4 V c t) projCover4

/-! ## Output window 5: the projection of main_arg1 by main_arg3 -/

/-- At grid point t the body's stored value at block position y is the projection's entry at the array position the
    output block puts y at: the input block is the same batch's rows, the weight block the whole matrix. -/
theorem projPoint5 (c : Dev nD) (t : Fin cfg0.N) (y : S1x256x256.Idx) :
    k0_pay2 (F := Ideal) (iblk0 V c 1 t) (iblk0 V c 3 t) y
      = AttnSpec.proj (V c main_arg1) (V c main_arg3) (((cfg0.win 5).blk t).view.emb y) := by
  obtain ⟨u, r, h, rfl⟩ : ∃ (u : Fin 1) (r h : Fin 256), y = ix3 u r h := ⟨y 0, y 1, y 2, eq_ix3 y⟩
  obtain ⟨e00, e01, e02, e10, e11, e12, e20, e21, e30, e31, e50, e51, e52, e41, e42, -⟩ := projIdx t
  refine (k0_pay2_apply (iblk0 V c 1 t) (iblk0 V c 3 t) u r h).trans ?_
  unfold AttnSpec.proj AttnSpec.projAt
  refine Finset.sum_congr rfl fun k _ => ?_
  refine congrArg₂ (· * ·) ?_ ?_
  · unfold iblk0
    rw [View.read_apply]
    show V c main_arg1 (((cfg0.win 1).blk t).view.emb (ix3 (0 : Fin 1) r k)) = V c main_arg1 _
    refine congrArg _ (funext fun a => Fin.ext ?_)
    match a with
    | ⟨0, _⟩ => show win0_1.index t (0 : Fin 3) * 1 + 1 * 0 = win0_5.index t (0 : Fin 3) * 1 + 1 * u.val; have := u.isLt; omega
    | ⟨1, _⟩ => show win0_1.index t (1 : Fin 3) * 256 + 1 * r.val = win0_5.index t (1 : Fin 3) * 256 + 1 * r.val; omega
    | ⟨2, _⟩ => show win0_1.index t (2 : Fin 3) * 512 + 1 * k.val = k.val; omega
  · unfold iblk0
    rw [View.read_apply]
    show V c main_arg3 (((cfg0.win 3).blk t).view.emb (ix2 k h)) = V c main_arg3 _
    refine congrArg _ (funext fun a => Fin.ext ?_)
    match a with
    | ⟨0, _⟩ => show win0_3.index t (0 : Fin 2) * 512 + 1 * k.val = k.val; omega
    | ⟨1, _⟩ => show win0_3.index t (1 : Fin 2) * 256 + 1 * h.val = win0_5.index t (2 : Fin 3) * 256 + 1 * h.val; omega

/-- What point t writes back is its block of the projected array. -/
theorem projFlushed5 (c : Dev nD) (t : Fin cfg0.N) :
    (dat0 V c).flushed 5 t = ((cfg0.win 5).blk t).view.read (Elt Ideal) (AttnSpec.proj (V c main_arg1) (V c main_arg3)) := by
  show (cfg0.win 5).cut (grid0.coords t) ((dat0 V c).after 5 t) = _
  rw [after0_5]
  unfold out0_5
  rw [View.canon_unit_zero hz3]
  simp only [View.ld_unit_zero (S := S1x256x512) hz3, View.ld_unit_zero (S := S512x256) hz2]
  funext j
  exact projPoint5 V c t j

/-- An index is in point t's block iff each coordinate is in the block's range. -/
theorem projMem5 (t : Fin cfg0.N) (i : S4x256x256.Idx) :
    i ∈ ((cfg0.win 5).blk t).view.set ↔ ∀ a : Fin 3, win0_5.index t a * S1x256x256.size a ≤ (i a).val ∧ (i a).val < win0_5.index t a * S1x256x256.size a + S1x256x256.size a := by
  show i ∈ ((View.whole main_v0_1).slice (win0_5.rect t)).set ↔ _
  rw [View.set_slice_whole, Rect.mem_set_unit]
  exact Iff.rfl

/-- The four blocks, one per batch entry, cover the array. -/
theorem projCover5 (i : S4x256x256.Idx) :
    ∃ t : Fin cfg0.N, (cfg0.win 5).flush t = true ∧ i ∈ ((cfg0.win 5).blk t).view.set := by
  have hi0 : (i 0).val < 4 := (i 0).isLt
  have hi1 : (i 1).val < 256 := (i 1).isLt
  have hi2 : (i 2).val < 256 := (i 2).isLt
  obtain ⟨t, ht⟩ := projOnto ⟨(i 0).val, hi0⟩
  have ht' : win0_4.index t (0 : Fin 3) = (i 0).val := ht
  obtain ⟨e00, e01, e02, e10, e11, e12, e20, e21, e30, e31, e50, e51, e52, e41, e42, -⟩ := projIdx t
  refine ⟨t, flush0_5 t, ?_⟩
  rw [projMem5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 256 ≤ (i 2).val ∧ (i 2).val < win0_5.index t (2 : Fin 3) * 256 + 256; omega

/-- So after the region the array holds the projection of the arrays the region was entered with. -/
theorem projFinal5 (c : Dev nD) : (dat0 V c).arrAt 5 cfg0.N = AttnSpec.proj (V c main_arg1) (V c main_arg3) :=
  (dat0 V c).arrAt_eq_of_cover 5 _ (fun t _ => projFlushed5 V c t) projCover5

end Cert.KernelIdeal.Hand

end
-- ==== Proof.ScorePayload.lean ====
/-
  The attention kernel's arithmetic at one entry. Its body loads a [1, 64, 256] block e of projected encoder rows, a
  [1, 128, 256] block d of projected decoder rows, the bias (256 entries) and the 256 × 8 matrix v; it forms
  s[i, j, h] = (e[i, h] + d[j, h]) + bias[h] by broadcasting, takes tanh, flattens the first two axes to 8192 rows,
  multiplies by v into a zero accumulator and unflattens. Over the extended reals (a change of float format is the
  identity) the entry (·, i, j, l) of what it stores is
      Σ_h tanh((e[0, i, h] + d[0, j, h]) + bias[h]) · v[h, l].
  Row i·128 + j of the flattened matrix is the pair (i, j): both layouts are row-major.
-/
import proofs.«177209_j1580547970729_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

/-! ## The matrix product [8192, 256] × [256, 8] read at an entry -/

theorem scoreDot_lhs0 (j : S8192x8.Idx) (q : dot_S8192x256_S256x8_S8192x8_1_0_0_1_n_n.contr.Idx) :
    (dot_S8192x256_S256x8_S8192x8_1_0_0_1_n_n.lhsIdx j q 0).val = (j 0).val := by
  unfold DotDims.lhsIdx
  rw [dif_neg (show ¬(0 : Fin S8192x256.rank) ∈ dot_S8192x256_S256x8_S8192x8_1_0_0_1_n_n.lhsBatch by decide), dif_pos (show (0 : Fin S8192x256.rank) ∈ dot_S8192x256_S256x8_S8192x8_1_0_0_1_n_n.lhsNonContracting by decide)]
  rfl
theorem scoreDot_lhs1 (j : S8192x8.Idx) (q : dot_S8192x256_S256x8_S8192x8_1_0_0_1_n_n.contr.Idx) :
    (dot_S8192x256_S256x8_S8192x8_1_0_0_1_n_n.lhsIdx j q 1).val = (q ⟨0, by decide⟩).val :=
  dot_S8192x256_S256x8_S8192x8_1_0_0_1_n_n.lhsIdx_val_of_single rfl j q
theorem scoreDot_rhs0 (j : S8192x8.Idx) (q : dot_S8192x256_S256x8_S8192x8_1_0_0_1_n_n.contr.Idx) :
    (dot_S8192x256_S256x8_S8192x8_1_0_0_1_n_n.rhsIdx j q 0).val = (q ⟨0, by decide⟩).val :=
  dot_S8192x256_S256x8_S8192x8_1_0_0_1_n_n.rhsIdx_val_of_single rfl j q
theorem scoreDot_rhs1 (j : S8192x8.Idx) (q : dot_S8192x256_S256x8_S8192x8_1_0_0_1_n_n.contr.Idx) :
    (dot_S8192x256_S256x8_S8192x8_1_0_0_1_n_n.rhsIdx j q 1).val = (j 1).val := by
  unfold DotDims.rhsIdx
  rw [dif_neg (show ¬(1 : Fin S256x8.rank) ∈ dot_S8192x256_S256x8_S8192x8_1_0_0_1_n_n.rhsBatch by decide), dif_pos (show (1 : Fin S256x8.rank) ∈ dot_S8192x256_S256x8_S8192x8_1_0_0_1_n_n.rhsNonContracting by decide)]
  rfl

/-- Entry (i, l) of the product into the zero accumulator is the sum over h of a[i, h] · b[h, l]. -/
theorem scoreMatmul_apply (a : FVec Ideal S8192x256 .bf16) (b : FVec Ideal S256x8 .bf16) (i : Fin 8192) (l : Fin 8) :
    FloatOps.matmul dot_S8192x256_S256x8_S8192x8_1_0_0_1_n_n none a b (constant S8192x8 .f32 0x00000000#32) (ix2 i l)
      = ∑ k : Fin 256, a (ix2 i k) * b (ix2 k l) := by
  rw [Ideal.matmul_constant_zero_apply, ← Equiv.sum_comp (contrEquiv1 dot_S8192x256_S256x8_S8192x8_1_0_0_1_n_n 256 rfl rfl).symm]
  refine Finset.sum_congr rfl fun k _ => ?_
  have hk := contrEquiv1_symm_val dot_S8192x256_S256x8_S8192x8_1_0_0_1_n_n 256 rfl rfl k
  have el : dot_S8192x256_S256x8_S8192x8_1_0_0_1_n_n.lhsIdx (ix2 i l) ((contrEquiv1 dot_S8192x256_S256x8_S8192x8_1_0_0_1_n_n 256 rfl rfl).symm k) = ix2 i k := funext fun a => Fin.ext (by
    match a with
    | ⟨0, _⟩ => exact scoreDot_lhs0 _ _
    | ⟨1, _⟩ => exact (scoreDot_lhs1 _ _).trans hk)
  have er : dot_S8192x256_S256x8_S8192x8_1_0_0_1_n_n.rhsIdx (ix2 i l) ((contrEquiv1 dot_S8192x256_S256x8_S8192x8_1_0_0_1_n_n 256 rfl rfl).symm k) = ix2 k l := funext fun a => Fin.ext (by
    match a with
    | ⟨0, _⟩ => exact (scoreDot_rhs0 _ _).trans hk
    | ⟨1, _⟩ => exact scoreDot_rhs1 _ _)
  rw [el, er]

/-! ## The three broadcast summands at (i, j, h) -/

/-- The encoder block, given a middle unit axis and repeated along it: entry (i, j, h) is e[0, i, h]. -/
theorem encTerm_apply (x0 : Vec Ideal S1x64x256 .f32) (e : Fin 64) (d : Fin 128) (k : Fin 256) :
    broadcastTo S64x128x256 (shapeCast S64x1x256 (shapeCast S64x256 x0 shapeCasts_S1x64x256_S64x256) shapeCasts_S64x256_S64x1x256)
        broadcasts_S64x1x256_S64x128x256 (ix3 e d k) = x0 (ix3 (0 : Fin 1) e k) := by
  refine (broadcastTo_apply _ _ (ix3 e d k) (ix3 e (0 : Fin 1) k) (fun a => match a with
    | ⟨0, _⟩ => by show e.val = if (64 : Nat) = 1 then 0 else e.val; rw [if_neg (by decide)]
    | ⟨1, _⟩ => by show 0 = if (1 : Nat) = 1 then 0 else d.val; rw [if_pos rfl]
    | ⟨2, _⟩ => by show k.val = if (256 : Nat) = 1 then 0 else k.val; rw [if_neg (by decide)])).trans ?_
  refine (shapeCast_apply _ _ (ix3 e (0 : Fin 1) k) (ix2 e k) (by
    rw [Shape.rowMajor_val_three, Shape.rowMajor_val_two]
    show e.val * 256 + k.val = (e.val * 1 + 0) * 256 + k.val
    omega)).trans ?_
  exact shapeCast_1ab_ab_apply _ _ e k

/-- The decoder block repeated along a new leading axis: entry (i, j, h) is d[0, j, h]. -/
theorem decTerm_apply (x1 : Vec Ideal S1x128x256 .f32) (e : Fin 64) (d : Fin 128) (k : Fin 256) :
    broadcastTo S64x128x256 (shapeCast S1x128x256 (shapeCast S128x256 x1 shapeCasts_S1x128x256_S128x256) shapeCasts_S128x256_S1x128x256)
        broadcasts_S1x128x256_S64x128x256 (ix3 e d k) = x1 (ix3 (0 : Fin 1) d k) := by
  refine (broadcastTo_apply _ _ (ix3 e d k) (ix3 (0 : Fin 1) d k) (fun a => match a with
    | ⟨0, _⟩ => by show 0 = if (1 : Nat) = 1 then 0 else e.val; rw [if_pos rfl]
    | ⟨1, _⟩ => by show d.val = if (128 : Nat) = 1 then 0 else d.val; rw [if_neg (by decide)]
    | ⟨2, _⟩ => by show k.val = if (256 : Nat) = 1 then 0 else k.val; rw [if_neg (by decide)])).trans ?_
  refine (shapeCast_ab_1ab_apply _ _ (0 : Fin 1) d k).trans ?_
  exact shapeCast_1ab_ab_apply _ _ d k

/-- The bias repeated along two new leading axes: entry (i, j, h) is bias[h]. -/
theorem biasTerm_apply (x2 : Vec Ideal S256 .f32) (e : Fin 64) (d : Fin 128) (k : Fin 256) :
    broadcastTo S64x128x256 (shapeCast S1x1x256 x2 shapeCasts_S256_S1x1x256) broadcasts_S1x1x256_S64x128x256 (ix3 e d k)
      = x2 (ix1 k) := by
  refine (broadcastTo_apply _ _ (ix3 e d k) (ix3 (0 : Fin 1) (0 : Fin 1) k) (fun a => match a with
    | ⟨0, _⟩ => by show 0 = if (1 : Nat) = 1 then 0 else e.val; rw [if_pos rfl]
    | ⟨1, _⟩ => by show 0 = if (1 : Nat) = 1 then 0 else d.val; rw [if_pos rfl]
    | ⟨2, _⟩ => by show k.val = if (256 : Nat) = 1 then 0 else k.val; rw [if_neg (by decide)])).trans ?_
  exact shapeCast_apply _ _ (ix3 (0 : Fin 1) (0 : Fin 1) k) (ix1 k) (by
    rw [Shape.rowMajor_val_three, Shape.rowMajor_val_one]
    show k.val = (0 * 1 + 0) * 256 + k.val
    omega)

/-! ## The stored value at an entry -/

/-- What the body stores at (u, i, j, l). -/
theorem k1_pay1_apply (x0 : Vec Ideal S1x64x256 .f32) (x1 : Vec Ideal S1x128x256 .f32) (x2 : Vec Ideal S256 .f32)
    (x3 : Vec Ideal S256x8 .f32) (u : Fin 1) (e : Fin 64) (d : Fin 128) (l : Fin 8) :
    k1_pay1 (F := Ideal) x0 x1 x2 x3 (ix4 u e d l)
      = ∑ k : Fin 256, Ideal.tanh ((x0 (ix3 (0 : Fin 1) e k) + x1 (ix3 (0 : Fin 1) d k)) + x2 (ix1 k)) * x3 (ix2 k l) := by
  have hr : e.val * 128 + d.val < 8192 := by have := e.isLt; have := d.isLt; omega
  unfold k1_pay1
  refine (shapeCast_abc_1abc_apply _ _ u e d l).trans ?_
  refine (shapeCast_apply _ _ (ix3 e d l) (ix2 (⟨e.val * 128 + d.val, hr⟩ : Fin 8192) l) (by
    rw [Shape.rowMajor_val_two, Shape.rowMajor_val_three]; rfl)).trans ?_
  refine (scoreMatmul_apply _ _ ⟨e.val * 128 + d.val, hr⟩ l).trans ?_
  refine Finset.sum_congr rfl fun k _ => ?_
  refine congrArg₂ (· * ·) ?_ rfl
  refine (shapeCast_apply _ _ (ix2 (⟨e.val * 128 + d.val, hr⟩ : Fin 8192) k) (ix3 e d k) (by
    rw [Shape.rowMajor_val_two, Shape.rowMajor_val_three]; rfl)).trans ?_
  exact congrArg Ideal.tanh (congrArg₂ (· + ·) (congrArg₂ (· + ·) (encTerm_apply x0 e d k) (decTerm_apply x1 e d k)) (biasTerm_apply x2 e d k))

end Cert.KernelIdeal.Hand

end
-- ==== Proof.ScoreRegion.lean ====
/-
  The second region (the attention kernel over a 4 × 4 × 2 grid: batch entry, tile of 64 encoder positions, tile of
  128 decoder positions) as a whole-array function: whatever arrays the region is entered with, its output array
  [4, 256, 256, 8] ends at
      energy[b, e, d, l] = Σ_h tanh((out_e[b, e, h] + out_d[b, d, h]) + bias[h]) · v[h, l].
  Point (b, p, q) reads block (b, p, 0) of out_e, block (b, q, 0) of out_d, the whole bias and v, and writes block
  (b, p, q, 0) of the output; the 32 output blocks tile the array.
-/
import proofs.«177209_j1580547970729_1_alg».proof.Proof.Gen.KernelIdeal.Frame
import proofs.«177209_j1580547970729_1_alg».proof.Proof.AttnSpec
import proofs.«177209_j1580547970729_1_alg».proof.Proof.ScorePayload
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (V : (c : Dev nD) → (b : Ref sig .tc) → Buf (Elt Ideal) ((c : Thread nD τ).loc b))

theorem hz4' : (![0, 0, 0, 0] : Fin 4 → Nat) = fun _ => 0 := funext fun a => by fin_cases a <;> rfl
theorem hz3' : (![0, 0, 0] : Fin 3 → Nat) = fun _ => 0 := funext fun a => by fin_cases a <;> rfl
theorem hz2' : (![0, 0] : Fin 2 → Nat) = fun _ => 0 := funext fun a => by fin_cases a <;> rfl
theorem hz1' : (![0] : Fin 1 → Nat) = fun _ => 0 := funext fun a => by fin_cases a <;> rfl

/-- The printed block-index maps over the grid: the encoder block of a point is the output block's batch entry and
    encoder tile, the decoder block its batch entry and decoder tile, the bias and v blocks the whole arrays. -/
theorem scoreIdx : ∀ t : Fin cfg1.N,
    win1_0.index t (0 : Fin 3) = win1_4.index t (0 : Fin 4) ∧ win1_0.index t (1 : Fin 3) = win1_4.index t (1 : Fin 4) ∧ win1_0.index t (2 : Fin 3) = 0
    ∧ win1_1.index t (0 : Fin 3) = win1_4.index t (0 : Fin 4) ∧ win1_1.index t (1 : Fin 3) = win1_4.index t (2 : Fin 4) ∧ win1_1.index t (2 : Fin 3) = 0
    ∧ win1_2.index t (0 : Fin 1) = 0
    ∧ win1_3.index t (0 : Fin 2) = 0 ∧ win1_3.index t (1 : Fin 2) = 0
    ∧ win1_4.index t (3 : Fin 4) = 0 ∧ win1_4.index t (0 : Fin 4) ≤ 3 ∧ win1_4.index t (1 : Fin 4) ≤ 3 ∧ win1_4.index t (2 : Fin 4) ≤ 1 :=
  (by decide +kernel : ∀ t : Fin grid1.N, _)

/-- Every (batch entry, encoder tile, decoder tile) is some point's. -/
theorem scoreOnto : ∀ (q0 : Fin 4) (q1 : Fin 4) (q2 : Fin 2), ∃ t : Fin cfg1.N,
    win1_4.index t (0 : Fin 4) = q0.val ∧ win1_4.index t (1 : Fin 4) = q1.val ∧ win1_4.index t (2 : Fin 4) = q2.val :=
  (by decide +kernel : ∀ (q0 : Fin 4) (q1 : Fin 4) (q2 : Fin 2), ∃ t : Fin grid1.N,
    win1_4.index t (0 : Fin 4) = q0.val ∧ win1_4.index t (1 : Fin 4) = q1.val ∧ win1_4.index t (2 : Fin 4) = q2.val)

/-- At grid point t the body's stored value at block position y is the energy at the array position the output block
    puts y at. -/
theorem scorePoint (c : Dev nD) (t : Fin cfg1.N) (y : S1x64x128x8.Idx) :
    k1_pay1 (F := Ideal) (iblk1 V c 0 t) (iblk1 V c 1 t) (iblk1 V c 2 t) (iblk1 V c 3 t) y
      = AttnSpec.score (V c main_v0_1) (V c main_v0_0) (V c main_arg4) (V c main_arg5) (((cfg1.win 4).blk t).view.emb y) := by
  obtain ⟨u, e, d, l, rfl⟩ : ∃ (u : Fin 1) (e : Fin 64) (d : Fin 128) (l : Fin 8), y = ix4 u e d l := ⟨y 0, y 1, y 2, y 3, eq_ix4 y⟩
  obtain ⟨e00, e01, e02, e10, e11, e12, e20, e30, e31, e43, -, -, -⟩ := scoreIdx t
  have hu : u.val = 0 := by have := u.isLt; omega
  refine (k1_pay1_apply (iblk1 V c 0 t) (iblk1 V c 1 t) (iblk1 V c 2 t) (iblk1 V c 3 t) u e d l).trans ?_
  unfold AttnSpec.score AttnSpec.scoreAt
  refine Finset.sum_congr rfl fun k _ => ?_
  refine congrArg₂ (· * ·) (congrArg Ideal.tanh (congrArg₂ (· + ·) (congrArg₂ (· + ·) ?_ ?_) ?_)) ?_
  · unfold iblk1
    rw [View.read_apply]
    show V c main_v0_1 (((cfg1.win 0).blk t).view.emb (ix3 (0 : Fin 1) e k)) = V c main_v0_1 _
    refine congrArg _ (funext fun a => Fin.ext ?_)
    match a with
    | ⟨0, _⟩ => show win1_0.index t (0 : Fin 3) * 1 + 1 * 0 = win1_4.index t (0 : Fin 4) * 1 + 1 * u.val; omega
    | ⟨1, _⟩ => show win1_0.index t (1 : Fin 3) * 64 + 1 * e.val = win1_4.index t (1 : Fin 4) * 64 + 1 * e.val; omega
    | ⟨2, _⟩ => show win1_0.index t (2 : Fin 3) * 256 + 1 * k.val = k.val; omega
  · unfold iblk1
    rw [View.read_apply]
    show V c main_v0_0 (((cfg1.win 1).blk t).view.emb (ix3 (0 : Fin 1) d k)) = V c main_v0_0 _
    refine congrArg _ (funext fun a => Fin.ext ?_)
    match a with
    | ⟨0, _⟩ => show win1_1.index t (0 : Fin 3) * 1 + 1 * 0 = win1_4.index t (0 : Fin 4) * 1 + 1 * u.val; omega
    | ⟨1, _⟩ => show win1_1.index t (1 : Fin 3) * 128 + 1 * d.val = win1_4.index t (2 : Fin 4) * 128 + 1 * d.val; omega
    | ⟨2, _⟩ => show win1_1.index t (2 : Fin 3) * 256 + 1 * k.val = k.val; omega
  · unfold iblk1
    rw [View.read_apply]
    show V c main_arg4 (((cfg1.win 2).blk t).view.emb (ix1 k)) = V c main_arg4 _
    refine congrArg _ (funext fun a => Fin.ext ?_)
    match a with
    | ⟨0, _⟩ => show win1_2.index t (0 : Fin 1) * 256 + 1 * k.val = k.val; omega
  · unfold iblk1
    rw [View.read_apply]
    show V c main_arg5 (((cfg1.win 3).blk t).view.emb (ix2 k l)) = V c main_arg5 _
    refine congrArg _ (funext fun a => Fin.ext ?_)
    match a with
    | ⟨0, _⟩ => show win1_3.index t (0 : Fin 2) * 256 + 1 * k.val = k.val; omega
    | ⟨1, _⟩ => show win1_3.index t (1 : Fin 2) * 8 + 1 * l.val = win1_4.index t (3 : Fin 4) * 8 + 1 * l.val; omega

/-- What point t writes back is its block of the energy array. -/
theorem scoreFlushed (c : Dev nD) (t : Fin cfg1.N) :
    (dat1 V c).flushed 4 t = ((cfg1.win 4).blk t).view.read (Elt Ideal)
      (AttnSpec.score (V c main_v0_1) (V c main_v0_0) (V c main_arg4) (V c main_arg5)) := by
  show (cfg1.win 4).cut (grid1.coords t) ((dat1 V c).after 4 t) = _
  rw [after1_4]
  unfold out1_4
  rw [View.canon_unit_zero hz4']
  simp only [View.ld_unit_zero (S := S1x64x256) hz3', View.ld_unit_zero (S := S1x128x256) hz3',
    View.ld_unit_zero (S := S256) hz1', View.ld_unit_zero (S := S256x8) hz2']
  funext j
  exact scorePoint V c t j

/-- An index is in point t's block iff each coordinate is in the block's range. -/
theorem scoreMem (t : Fin cfg1.N) (i : S4x256x256x8.Idx) :
    i ∈ ((cfg1.win 4).blk t).view.set ↔ ∀ a : Fin 4, win1_4.index t a * S1x64x128x8.size a ≤ (i a).val ∧ (i a).val < win1_4.index t a * S1x64x128x8.size a + S1x64x128x8.size a := by
  show i ∈ ((View.whole main_v1).slice (win1_4.rect t)).set ↔ _
  rw [View.set_slice_whole, Rect.mem_set_unit]
  exact Iff.rfl

/-- The 32 blocks cover the array: position (b, e, d, l) is in the block of batch entry b, encoder tile e / 64,
    decoder tile d / 128. -/
theorem scoreCover (i : S4x256x256x8.Idx) :
    ∃ t : Fin cfg1.N, (cfg1.win 4).flush t = true ∧ i ∈ ((cfg1.win 4).blk t).view.set := by
  have hi0 : (i 0).val < 4 := (i 0).isLt
  have hi1 : (i 1).val < 256 := (i 1).isLt
  have hi2 : (i 2).val < 256 := (i 2).isLt
  have hi3 : (i 3).val < 8 := (i 3).isLt
  obtain ⟨t, ht0, ht1, ht2⟩ := scoreOnto ⟨(i 0).val, hi0⟩ ⟨(i 1).val / 64, by omega⟩ ⟨(i 2).val / 128, by omega⟩
  have ht0' : win1_4.index t (0 : Fin 4) = (i 0).val := ht0
  have ht1' : win1_4.index t (1 : Fin 4) = (i 1).val / 64 := ht1
  have ht2' : win1_4.index t (2 : Fin 4) = (i 2).val / 128 := ht2
  obtain ⟨e00, e01, e02, e10, e11, e12, e20, e30, e31, e43, -, -, -⟩ := scoreIdx t
  refine ⟨t, flush1_4 t, ?_⟩
  rw [scoreMem]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 64 ≤ (i 1).val ∧ (i 1).val < win1_4.index t (1 : Fin 4) * 64 + 64; omega
  | ⟨2, _⟩ => show win1_4.index t (2 : Fin 4) * 128 ≤ (i 2).val ∧ (i 2).val < win1_4.index t (2 : Fin 4) * 128 + 128; omega
  | ⟨3, _⟩ => show win1_4.index t (3 : Fin 4) * 8 ≤ (i 3).val ∧ (i 3).val < win1_4.index t (3 : Fin 4) * 8 + 8; omega

/-- So after the region the output array holds the energies of the arrays the region was entered with. -/
theorem scoreFinal (c : Dev nD) : (dat1 V c).arrAt 4 cfg1.N
    = AttnSpec.score (V c main_v0_1) (V c main_v0_0) (V c main_arg4) (V c main_arg5) :=
  (dat1 V c).arrAt_eq_of_cover 4 _ (fun t _ => scoreFlushed V c t) scoreCover

end Cert.KernelIdeal.Hand

end
-- ==== Proof.KernelValue.lean ====
/-
  The idealized kernel program's result as a function of its arguments. The contents at the run's last boundary are a
  fold: the launch memory; then the first region's two output arrays at the projections of the arguments; then the
  second region's output array at the energies of what it finds (the two projected arrays, the bias, v); then the
  host's transposition of that array. Unfolding the fold one boundary at a time, the result array is the
  transposition of the specification's energy array of the six arguments.
-/
import proofs.«177209_j1580547970729_1_alg».proof.Proof.KernelRun
import proofs.«177209_j1580547970729_1_alg».proof.Proof.ProjRegion
import proofs.«177209_j1580547970729_1_alg».proof.Proof.ScoreRegion
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-- The last boundary's result array is the host's transposition of the second region's output array. -/
theorem result_tail (c : Dev nD) :
    W3 m ρ c (Proc.devRef .tc main_v2)
      = transpose S4x8x256x256 [0, 3, 2, 1] (W2 m ρ c (Proc.devRef .tc main_v1)) transposes_S4x256x256x8_S4x8x256x256_0_3_2_1 := by
  show StableHlo.after hostOps2 (W2 m ρ c) (Proc.devRef .tc main_v2) = _
  after_results

/-- The second region finds the first region's outputs at the projections, and the bias and v as launched. -/
theorem entry_enc (c : Dev nD) : V1 m ρ c main_v0_1
    = AttnSpec.proj (m ((c : Thread nD τ).loc main_arg1)) (m ((c : Thread nD τ).loc main_arg3)) :=
  (W1_arr m ρ c 5).trans (projFinal5 (V0 m ρ) c)
theorem entry_dec (c : Dev nD) : V1 m ρ c main_v0_0
    = AttnSpec.proj (m ((c : Thread nD τ).loc main_arg0)) (m ((c : Thread nD τ).loc main_arg2)) :=
  (W1_arr m ρ c 4).trans (projFinal4 (V0 m ρ) c)
theorem entry_bias (c : Dev nD) : V1 m ρ c main_arg4 = m ((c : Thread nD τ).loc main_arg4) :=
  W1_of_ne m ρ c main_arg4 (by decide)
theorem entry_v (c : Dev nD) : V1 m ρ c main_arg5 = m ((c : Thread nD τ).loc main_arg5) :=
  W1_of_ne m ρ c main_arg5 (by decide)

/-- The result array at the run's last boundary: the transposed energies of the arguments. -/
theorem result_eq (c : Dev nD) :
    W3 m ρ c (Proc.devRef .tc main_v2)
      = transpose S4x8x256x256 [0, 3, 2, 1]
          (AttnSpec.energy (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))) transposes_S4x256x256x8_S4x8x256x256_0_3_2_1 := by
  rw [result_tail]
  refine congrArg (fun X => transpose S4x8x256x256 [0, 3, 2, 1] X transposes_S4x256x256x8_S4x8x256x256_0_3_2_1) ?_
  refine (W2_arr m ρ c 4).trans ?_
  refine (scoreFinal (V1 m ρ) c).trans ?_
  unfold AttnSpec.energy
  rw [entry_enc, entry_dec, entry_bias, entry_v]

/-- The run, read: the result array at the transposed energies of the arguments, the arguments unchanged. -/
theorem run : θ_run defs (onTc (τ := τ) (main (F := Ideal))) ⟨m, fun _ => 0, ρ⟩ (fun r => ∀ c : Dev nD,
      r.2.mem ((c.tc : Thread nD τ).loc main_v2)
        = transpose S4x8x256x256 [0, 3, 2, 1]
          (AttnSpec.energy (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))) transposes_S4x256x256x8_S4x8x256x256_0_3_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_result m ρ)

end Cert.KernelIdeal.Hand

end
-- ==== Proof.RefValue.lean ====
/-
  The reference program's result is the specification. Before its last transposition the reference holds
      Σ_h tanh((out_d[b, d, h] + out_e[b, e, h]) + bias[h]) · v[h, l]
  at (b, e, d, l), with out_d and out_e the two host matrix products broadcast along the encoder and the decoder axis.
  This is the specification's energy with the two projected summands in the other order; addition of extended reals
  is commutative, so the two agree at every index, infinite entries included.
-/
import proofs.«177209_j1580547970729_1_alg».proof.Proof.Gen.ReferenceIdeal.Read
import proofs.«177209_j1580547970729_1_alg».proof.Proof.AttnSpec

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read

/-- The reference's array before the transposition is the energy array of its six arguments. -/
theorem ref_energy (x0 x1 : (⟨S4x256x512, .f32⟩ : BufTy).Contents (Elt Ideal)) (x2 x3 : (⟨S512x256, .f32⟩ : BufTy).Contents (Elt Ideal))
    (x4 : (⟨S256, .f32⟩ : BufTy).Contents (Elt Ideal)) (x5 : (⟨S256x8, .f32⟩ : BufTy).Contents (Elt Ideal)) :
    val_main_v11 (F := Ideal) x0 x1 x2 x3 x4 x5 = AttnSpec.energy x0 x1 x2 x3 x4 x5 := by
  funext i
  rw [val_main_v11_apply]
  unfold AttnSpec.energy AttnSpec.score AttnSpec.scoreAt
  refine Finset.sum_congr rfl fun k _ => ?_
  -- the decoder projection, read through the two broadcasts
  have hd : val_main_v0 (F := Ideal) x0 x2 (idx_main_v1 (idx_main_v4 (lidx_main_v11 i k))) = AttnSpec.proj x0 x2 (ix3 (i 0) (i 2) k) := by
    rw [val_main_v0_apply]
    unfold AttnSpec.proj AttnSpec.projAt
    refine Finset.sum_congr rfl fun k' _ => ?_
    exact congrArg₂ (· * ·)
      (congrArg x0 (funext fun a => Fin.ext (by match a with | ⟨0, _⟩ => rfl | ⟨1, _⟩ => rfl | ⟨2, _⟩ => rfl)))
      (congrArg x2 (funext fun a => Fin.ext (by match a with | ⟨0, _⟩ => rfl | ⟨1, _⟩ => rfl)))
  -- the encoder projection, likewise
  have he : val_main_v2 (F := Ideal) x1 x3 (idx_main_v3 (idx_main_v5 (lidx_main_v11 i k))) = AttnSpec.proj x1 x3 (ix3 (i 0) (i 1) k) := by
    rw [val_main_v2_apply]
    unfold AttnSpec.proj AttnSpec.projAt
    refine Finset.sum_congr rfl fun k' _ => ?_
    exact congrArg₂ (· * ·)
      (congrArg x1 (funext fun a => Fin.ext (by match a with | ⟨0, _⟩ => rfl | ⟨1, _⟩ => rfl | ⟨2, _⟩ => rfl)))
      (congrArg x3 (funext fun a => Fin.ext (by match a with | ⟨0, _⟩ => rfl | ⟨1, _⟩ => rfl)))
  have hb : x4 (idx_main_v7 (idx_main_v8 (lidx_main_v11 i k))) = x4 (ix1 k) :=
    congrArg x4 (funext fun a => Fin.ext (by match a with | ⟨0, _⟩ => rfl))
  have hv : x5 (ridx_main_v11 i k) = x5 (ix2 k (i 3)) :=
    congrArg x5 (funext fun a => Fin.ext (by match a with | ⟨0, _⟩ => rfl | ⟨1, _⟩ => rfl))
  rw [val_main_v10_apply, val_main_v9_apply, val_main_v6_apply, val_main_v4_apply, val_main_v1_apply,
    val_main_v5_apply, val_main_v3_apply, val_main_v8_apply, val_main_v7_apply, hd, he, hb, hv]
  show Ideal.tanh ((AttnSpec.proj x0 x2 (ix3 (i 0) (i 2) k) + AttnSpec.proj x1 x3 (ix3 (i 0) (i 1) k)) + x4 (ix1 k)) * x5 (ix2 k (i 3)) = _
  rw [add_comm (AttnSpec.proj x0 x2 (ix3 (i 0) (i 2) k))]

/-- So the reference's result is the transposition of the energy array. -/
theorem ref_result (x0 x1 : (⟨S4x256x512, .f32⟩ : BufTy).Contents (Elt Ideal)) (x2 x3 : (⟨S512x256, .f32⟩ : BufTy).Contents (Elt Ideal))
    (x4 : (⟨S256, .f32⟩ : BufTy).Contents (Elt Ideal)) (x5 : (⟨S256x8, .f32⟩ : BufTy).Contents (Elt Ideal)) :
    val_main_v12 (F := Ideal) x0 x1 x2 x3 x4 x5
      = transpose S4x8x256x256 [0, 3, 2, 1] (AttnSpec.energy x0 x1 x2 x3 x4 x5) transposes_S4x256x256x8_S4x8x256x256_0_3_2_1 := by
  unfold val_main_v12
  rw [ref_energy]

end Cert.ReferenceIdeal.RefValue

end
-- ==== Proof.lean ====
/-
  The certificate of the additive-attention kernel against its jnp reference, over the extended reals.

  The kernel program runs two kernels and one host transposition. The first kernel projects the decoder and the encoder
  inputs, out_d = input_d · W_d and out_e = input_e · W_e (batched matrix products, one batch entry per grid point). The
  second, over tiles of 64 encoder by 128 decoder positions, forms tanh((out_e[b, e, :] + out_d[b, d, :]) + bias) and
  multiplies it by v, giving energy[b, e, d, :]; the host lays the result out as [b, l, d, e]. The reference computes
  the same with whole-array operations, adding the two projections in the other order. Over the extended reals the
  changes of float format are identities, both matrix products are plain finite sums in the same order, tanh is one
  function on both sides, and addition is commutative, so the two results agree entry by entry for every input:
  finiteness of the inputs is not used. The idealization pass rewrote nothing, so that claim is trivial.

  The kernel's frame claims are the generated frame proofs; the reference's frame is its generated run with the result
  dropped. For the equality, the kernel program's run is stated once more with its result named
  (Proof/KernelRun.lean), each region's output arrays are read as whole-array functions of what the region is entered
  with (Proof/ProjRegion.lean, Proof/ScoreRegion.lean, over the per-entry arithmetic of Proof/ProjPayload.lean and
  Proof/ScorePayload.lean), the boundaries are composed (Proof/KernelValue.lean), and the reference's term is
  identified with the same specification (Proof/RefValue.lean, Proof/AttnSpec.lean).
-/
import proofs.«177209_j1580547970729_1_alg».proof.Defs
import proofs.«177209_j1580547970729_1_alg».proof.Proof.Gen.Kernel
import proofs.«177209_j1580547970729_1_alg».proof.Proof.Gen.Kernel.Skeleton
import proofs.«177209_j1580547970729_1_alg».proof.Proof.Gen.Kernel.Launch
import proofs.«177209_j1580547970729_1_alg».proof.Proof.Gen.Kernel.Points
import proofs.«177209_j1580547970729_1_alg».proof.Proof.Gen.Kernel.Frame
import proofs.«177209_j1580547970729_1_alg».proof.Proof.Gen.KernelIdeal
import proofs.«177209_j1580547970729_1_alg».proof.Proof.Gen.KernelIdeal.Skeleton
import proofs.«177209_j1580547970729_1_alg».proof.Proof.Gen.KernelIdeal.Launch
import proofs.«177209_j1580547970729_1_alg».proof.Proof.Gen.KernelIdeal.Points
import proofs.«177209_j1580547970729_1_alg».proof.Proof.Gen.KernelIdeal.Frame
import proofs.«177209_j1580547970729_1_alg».proof.Proof.Gen.ReferenceIdeal
import proofs.«177209_j1580547970729_1_alg».proof.Proof.Gen.Pre_finite_inputs
import proofs.«177209_j1580547970729_1_alg».proof.Proof.Gen.ReferenceIdeal.Run
import proofs.«177209_j1580547970729_1_alg».proof.Proof.Gen.ReferenceIdeal.Read
import proofs.«177209_j1580547970729_1_alg».proof.Proof.KernelValue
import proofs.«177209_j1580547970729_1_alg».proof.Proof.RefValue
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories agreeing on the six arguments both programs end with the transposed energy array of those arguments:
    the kernel program by its run read through its two regions, the reference by its run read operation by
    operation. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_result,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
